-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100x128 : Shape := ⟨2, ![100, 128]⟩
abbrev S_ : Shape := ⟨0, ![]⟩

class Facts : Prop where
  bcast_S_S100x128 : S_.BroadcastsInDim S100x128 (![] : Fin 0 → Fin S100x128.rank)
  reducesTo_S100x128_S_d0_1 : S100x128.ReducesTo [0, 1] S_
  h_S_ : 0 < S_.numel
  reducesTo_S_S_d : S_.ReducesTo [] S_

variable [Facts]

def fn {F : FTy → Type} [FloatOps F] (main_arg0 : FVec F S100x128 .f32) (main_arg1 : IVec S_ 32) : IVec S_ 1 :=
  let main_v0 : FVec F S100x128 .f32 := Host.absf main_arg0
  let main_cst : FVec F S_ .f32 := constant S_ .f32 0x7F800000#32
  let main_v1 : FVec F S100x128 .f32 := broadcastInDim S100x128 ![] bcast_S_S100x128 main_cst
  let main_v2 : IVec S100x128 1 := cmpf .olt main_v0 main_v1
  let main_c : IVec S_ 1 := constantI S_ 1 1#1
  let main_v3 : IVec S_ 1 := (fun x v => Host.reduce IntOp.andi x v reducesTo_S100x128_S_d0_1 h_S_) main_v2 main_c
  let main_c_0 : IVec S_ 32 := constantI S_ 32 7#32
  let main_v4 : IVec S_ 1 := cmpi .sge main_arg1 main_c_0
  let main_c_1 : IVec S_ 32 := constantI S_ 32 7#32
  let main_v5 : IVec S_ 1 := cmpi .sle main_arg1 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  main_v8
-- ==== Kernel.lean ====
abbrev S100x128 : Shape := ⟨2, ![100, 128]⟩
abbrev S_ : Shape := ⟨0, ![]⟩
abbrev S1 : Shape := ⟨1, ![1]⟩
abbrev S1x128 : Shape := ⟨2, ![1, 128]⟩

abbrev nBuf : Table → Nat
  | .hbm => 4
  | .local .scScalar .smem => 1
  | _ => 0

abbrev bufTy : (tb : Table) → Fin (nBuf tb) → BufTy
  | .hbm, ⟨0, _⟩ => ⟨S100x128, .f32⟩
  | .hbm, ⟨1, _⟩ => ⟨S_, .i32⟩
  | .hbm, ⟨2, _⟩ => ⟨S1, .i32⟩
  | .hbm, ⟨3, _⟩ => ⟨S1x128, .f32⟩
  | .local .scScalar .smem, ⟨0, _⟩ => ⟨S1, .i32⟩
  | _, _ => ⟨S100x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scs : Ref sig .scScalar := ⟨.hbm, 0, rfl⟩
abbrev main_v0_scs : Ref sig .scScalar := ⟨.hbm, 2, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x128.size a ≤ S100x128.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x128.size a ≤ S100x128.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  bcast_S_S1 : S_.BroadcastsInDim S1 (![] : Fin 0 → Fin S1.rank)
  inb_S1_S1_0 : ∀ a, (![0] : Fin 1 → Nat) a + S1.size a ≤ S1.size a
  numel1_S1 : S1.numel = 1
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S100x128 : Shape := ⟨2, ![100, 128]⟩
abbrev S_ : Shape := ⟨0, ![]⟩
abbrev S1 : Shape := ⟨1, ![1]⟩
abbrev S1x1 : Shape := ⟨2, ![1, 1]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S100x128, .f32⟩
  | .hbm, ⟨1, _⟩ => ⟨S_, .i32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x128, .f32⟩
  | .hbm, ⟨21, _⟩ => ⟨S1x128, .i1⟩
  | .hbm, ⟨22, _⟩ => ⟨S_, .f32⟩
  | .hbm, ⟨23, _⟩ => ⟨S1x128, .f32⟩
  | .hbm, ⟨24, _⟩ => ⟨S1x128, .f32⟩
  | _, _ => ⟨S100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call1_c : Ref sig .tc := ⟨.hbm, 3, rfl⟩
abbrev main_call1_v0 : Ref sig .tc := ⟨.hbm, 4, rfl⟩
abbrev main_call1_v1 : Ref sig .tc := ⟨.hbm, 5, rfl⟩
abbrev main_call1_c_0 : Ref sig .tc := ⟨.hbm, 6, rfl⟩
abbrev main_call1_v2 : Ref sig .tc := ⟨.hbm, 7, rfl⟩
abbrev main_call1_v3 : Ref sig .tc := ⟨.hbm, 8, rfl⟩
abbrev main_call1_v4 : Ref sig .tc := ⟨.hbm, 9, rfl⟩
abbrev main_call1_v5 : Ref sig .tc := ⟨.hbm, 10, rfl⟩
abbrev main_call1_c_1 : Ref sig .tc := ⟨.hbm, 11, rfl⟩
abbrev main_call1_c_2 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_v9 : Ref sig .tc := ⟨.hbm, 16, rfl⟩
abbrev main_call1_v10 : Ref sig .tc := ⟨.hbm, 17, rfl⟩
abbrev main_call1_c_3 : Ref sig .tc := ⟨.hbm, 18, rfl⟩
abbrev main_call1_v11 : Ref sig .tc := ⟨.hbm, 19, rfl⟩
abbrev main_call1_v12 : Ref sig .tc := ⟨.hbm, 20, rfl⟩
abbrev main_call1_v13 : Ref sig .tc := ⟨.hbm, 21, rfl⟩
abbrev main_call1_cst : Ref sig .tc := ⟨.hbm, 22, rfl⟩
abbrev main_call1_v14 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x128_0 : S1.BroadcastsInDim S1x128 (![0] : Fin 1 → Fin S1x128.rank)
  bcast_S_S1x128 : S_.BroadcastsInDim S1x128 (![] : Fin 0 → Fin S1x128.rank)
  gather_S100x128_S1x1_S1x128_1_0_n_n_0_1_1128_wf : GatherDims.WF S100x128 S1x1 S1x128 [1] [0] [] [0] [] 1 ![1, 128]

variable [Facts₀]

def gather_S100x128_S1x1_S1x128_1_0_n_n_0_1_1128 : GatherDims S100x128 S1x1 S1x128 where
  offsetDims := [1]
  collapsedSliceDims := [0]
  operandBatchingDims := []
  startIndicesBatchingDims := []
  startIndexMap := [0]
  indexVectorDim := 1
  sliceSizes := ![1, 128]
  wf := gather_S100x128_S1x1_S1x128_1_0_n_n_0_1_1128_wf

class Facts : Prop extends Facts₀ where

variable [Facts]
-- ==== Proof.PreFacts.lean ====
import proofs.«208067_g26070451486926_retrytranche2_1712_11_alg».proof.Pre_input_domain
import proofs.«208067_g26070451486926_retrytranche2_1712_11_alg».proof.Proof.Gen.Pre_input_domain
import Idealize.ShloMosaic.Lib.ReduceAll
import Idealize.ShloMosaic.Lib.ValueIdx

/-!
# What the precondition says of the scalar index

The precondition is the conjunction of "every entry of the table is finite" and "7 ≤ index ≤ 7", each an all-reduce
by `and` that came out 1. Read back, the second says that the scalar index is the word 7.
-/

namespace Cert.Pre_input_domain.Decode

open Idealize.ShloMosaic Idealize.ShloMosaic.ValueIdx Cert.Pre_input_domain Cert.Pre_input_domain.Gen

instance : Subsingleton S_.Idx := ⟨fun a b => funext fun d => d.elim0⟩

/-- Where the precondition holds the scalar index is 7: both comparisons against 7 came out 1, and a 32-bit word
    whose signed value is 7 is the word 7. -/
theorem index_eq {F : FTy → Type} [FloatOps F] (x : FVec F S100x128 .f32) (a : IVec S_ 32)
    (h : fn (F := F) x a = fun _ => 1#1) : a = fun _ => 7#32 := by
  have h0 := congrFun h ix0
  dsimp only [fn] at h0
  obtain ⟨-, h2⟩ := IntOp.andi_eq_one.1 h0
  have h3 := Host.reduce_andi_all _ _ _ _ _ h2 ix0
  obtain ⟨hge, hle⟩ := IntOp.andi_eq_one.1 h3
  have h4 : (7#32 : BitVec 32).toInt ≤ (a ix0).toInt := IntOp.cmpi_sge.1 hge
  have h5 : (a ix0).toInt ≤ (7#32 : BitVec 32).toInt := IntOp.cmpi_sle.1 hle
  funext i
  obtain rfl : i = ix0 := Subsingleton.elim _ _
  exact BitVec.eq_of_toInt_eq (le_antisymm h5 h4)

end Cert.Pre_input_domain.Decode
-- ==== Proof.KernelRun.lean ====
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«208067_g26070451486926_retrytranche2_1712_11_alg».proof.Proof.Gen.Kernel
import proofs.«208067_g26070451486926_retrytranche2_1712_11_alg».proof.Proof.Gen.Kernel.Skeleton

/-!
# The kernel's run

One row of a 100 x 128 table is taken at a scalar index. @main on the TensorCore lays the scalar into a one-element
array and calls a kernel on one SparseCore's sequencer; the sequencer copies that array into its one word of scalar
memory and waits for the copy, reads the word, and copies the table's row at that word onto the 1 x 128 result and
waits. Each copy completes on a semaphore of its own and is waited for before anything touches its source or
destination again, so the two transfers follow the schedule-free protocol: a counter per semaphore, no rounds.

From a memory whose scalar index is 7 the word read is 7, the one-row slice at offset 7 lies inside the table (the
side condition the body assumes of the word), and the result ends at row 7: entry (0, j) is the table's entry (7, j).
The run is stated for any float instance: every weakly fair execution of the device's threads terminates, nothing
faulting, with the result at that row and the table and the index unchanged.
-/

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the four arrays, and what they hold -/

variable (m : (ℓ : Loc nD τ sig) → Buf (Elt F) ℓ) (ρ : Dev nD → PrngReg)

-- the kernel's memrefs, spelt as the body table passes them
local notation "tW" => (Memref.whole Cert.Kernel.main_arg0_scs : Memref Cert.Kernel.sig Kind.scScalar Space.hbm Cert.Kernel.S100x128 EltTy.f32)
local notation "iW" => (Memref.whole Cert.Kernel.main_v0_scs : Memref Cert.Kernel.sig Kind.scScalar Space.hbm Cert.Kernel.S1 EltTy.i32)
local notation "oW" => (Memref.whole Cert.Kernel.main_v1_scs : Memref Cert.Kernel.sig Kind.scScalar Space.hbm Cert.Kernel.S1x128 EltTy.f32)
local notation "sW" => (Memref.whole Cert.Kernel.cc0_scratch0 : Memref Cert.Kernel.sig Kind.scScalar Space.smem Cert.Kernel.S1 EltTy.i32)

/-- The table, the scalar index, the index as a one-element array, the result row: the TensorCore's names. -/
abbrev tLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

variable [FloatOps F]

/-- The one-element index array @main makes of the scalar before the call. -/
abbrev IDX (d : Dev nD) : Buf (Elt F) (iLoc d) := broadcastInDim S1 ![] bcast_S_S1 (m (aLoc d))

/-- Row 7 of the table, as a 1 x 128 array: entry (0, j) is the table's entry (7, j). -/
def ROW (d : Dev nD) : Buf (Elt F) (oLoc d) := fun i => m (tLoc d) (ix2 (7 : Fin 100) (i 1))

abbrev tPts (d : Dev nD) : sProp 𝕄 := tLoc d ↦{fullShare} m (tLoc d)
abbrev iPts (d : Dev nD) : sProp 𝕄 := iLoc d ↦{fullShare} IDX m d
abbrev oPts (d : Dev nD) (f : Buf (Elt F) (oLoc d)) : sProp 𝕄 := oLoc d ↦{fullShare} f

/-- What the call hands the one SparseCore and takes back: the table and the index array at their contents, the result
    row at whatever it holds going in and at row 7 of the table coming back. -/
def P : (K (F := F)).Pay (nD := nD) (Val := Elt F) (Name := ℕ) (U := UU) where
  st := fun _ d _ => iprop(tPts m d ∗ iPts m d ∗ ∃ f, oPts d f)
  dn := fun _ d _ => iprop(tPts m d ∗ iPts m d ∗ oPts d (ROW m d))
  go := fun _ _ _ _ => iprop(emp)
  td := fun _ _ _ _ => iprop(emp)
  x := fun _ _ => iprop(emp)

instance P_storable : (P (F := F) m).IsStorable where
  st _ d _ := (inferInstance : BI.Storable (upEmb : UEmb _ 𝕄) iprop(tPts m d ∗ iPts m d ∗ ∃ f, oPts d f))
  dn _ d _ := (inferInstance : BI.Storable (upEmb : UEmb _ 𝕄) iprop(tPts m d ∗ iPts m d ∗ oPts d (ROW m d)))
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## The kernel's body on the sequencer -/

section Body

variable (d : Dev nD) (L : grid0.Coords)

/-- The sequencer that runs the body at grid point `L`. -/
abbrev SQ : Thread nD τ := S d ((L 0).castLE hcore0)

/-- The two transfers' semaphores, as cells of that sequencer. -/
abbrev cellA : GSem nD τ sig := (SQ d L, .dma cc0_scoped0.sem)
abbrev cellB : GSem nD τ sig := (SQ d L, .dma cc0_scoped1.sem)

omit [FloatOps F] in
theorem ownSems0_SQ :
    (ownSems0 (SQ d L) : sProp 𝕄)
      = iprop(semVal (cellA d L) 0 ∗ semVal (cellB d L) 0
          ∗ bigSep (((ownCells (SQ d L)).erase (cellA d L)).erase (cellB d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scScalar = true; decide⟩),
    SparseCore.bigSep_erase' (Finset.mem_erase.mpr ⟨by simp [cellA, cellB]; decide, (mem_ownCells (g := cellB d L)).mpr ⟨rfl, by
      show (SemLoc.dma cc0_scoped1.sem : SemLoc sig).isScoped .scScalar = true; decide⟩⟩)]

omit [FloatOps F] in
/-- The scalar memory's one word is among the sequencer's own buffers: they are it, at some contents, and the rest. -/
theorem ownBufs_SQ :
    (ownBufs (SQ d L) : sProp 𝕄)
      = iprop((∃ f, (SQ d L).loc cc0_scratch0 ↦{fullShare} f)
          ∗ bigSep ((ownRefs (τ := τ) (.scScalar ((L 0).castLE hcore0))).erase ((Proc.scScalar ((L 0).castLE hcore0)).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
theorem pts_t (f : Buf (Elt F) (tLoc d)) :
    ((tW).view.loc (SQ d L) ↦{fullShare} f : sProp 𝕄) = tLoc d ↦{fullShare} f := by
  simp only [Memref.view_whole, View.set_whole]
omit [FloatOps F] in
theorem pts_i (f : Buf (Elt F) (iLoc d)) :
    ((iW).view.loc (SQ d L) ↦{fullShare} f : sProp 𝕄) = iLoc d ↦{fullShare} f := by
  simp only [Memref.view_whole, View.set_whole]
omit [FloatOps F] in
theorem pts_o (f : Buf (Elt F) (oLoc d)) :
    ((oW).view.loc (SQ d L) ↦{fullShare} f : sProp 𝕄) = oLoc d ↦{fullShare} f := by
  simp only [Memref.view_whole, View.set_whole]
omit [FloatOps F] in
theorem pts_s (f : Buf (Elt F) ((SQ d L).loc cc0_scratch0)) :
    ((sW).view.loc (SQ d L) ↦{fullShare} f : sProp 𝕄) = (SQ d L).loc cc0_scratch0 ↦{fullShare} f := by
  simp only [Memref.view_whole, View.set_whole]

omit [FloatOps F] in
/-- The one-row slice of the table at row offset 7 reads row 7: entry (0, j) of the slice is entry (7, j) of the
    table (a slice's entry sits at offset + coordinate on each axis). -/
theorem row_read (v : BitVec 32) (hv : v = 7#32) (hw : k0_chk1 v) (f : Buf (Elt F) (tLoc d)) :
    View.read (Elt F) ((tW).slice (Rect.unit (s := S100x128) (k0_off1 v) S1x128.size (k0_off1_inb v hw)) (fun _ => rfl)).view f
      = fun i => f (ix2 (7 : Fin 100) (i 1)) := by
  subst hv
  funext i
  rw [View.read_apply, cast_eq]
  congr 1
  funext a
  refine Fin.ext ?_
  match a with
  | ⟨0, _⟩ =>
    show 7 + 1 * (i 0).val = 7
    have := (i 0).isLt
    have h1 : (i 0).val < 1 := this
    omega
  | ⟨1, _⟩ =>
    show 0 + 1 * (i 1).val = (i 1).val
    omega

/-- The kernel on the sequencer: the index array copied into scalar memory and waited for, the word read (7, by the
    precondition: inside the table), row 7 of the table copied onto the result row and waited for. -/
theorem body (h7 : ∀ d, m (aLoc d) = fun _ => 7#32) (hF : (K (F := F)).Facts) (O : CellTallies nD τ sig (HIx 1)) (W : Waits sig (HIx 1)) (hO : ∀ g, O g none = 0) :
    iprop(levAts (K (F := F)).L (K (F := F)).lev ∗ emp ∗ (tPts m d ∗ iPts m d ∗ ∃ f, oPts d f)
        ∗ scopedBufs (SQ d L) ∗ scopedSems0 (SQ d L) ∗ owes (SQ d L) O W)
      ⊢ wp frame (wpE (defs₀ (F := F)) 𝒱₀ (SQ d L) none) Set.univ
          (cc0__lookup L tW (Memref.isWhole_whole _) iW (Memref.isWhole_whole _) oW (Memref.isWhole_whole _) sW (Memref.isWhole_whole _) cc0_scoped0 cc0_scoped1)
          fun _ => iprop((tPts m d ∗ iPts m d ∗ oPts d (ROW m d)) ∗ scopedBufs (SQ d L) ∗ scopedSems0 (SQ d L)
            ∗ ∃ W', ⌜∀ p ∈ W', p ∈ W ∨ p.2 = none⌝ ∗ owes (SQ d L) O W') := by
  simp only [cc0__lookup_eq_skeleton]; unfold cc0__lookup_skel
  iintro ⟨#Hlv, -, ⟨Ht, Hi, %fo, Ho⟩, Hsb, Hss, HO⟩
  ihave Hsb' := ((K (F := F)).scopedBufs_S_elim hF d ((L 0).castLE hcore0)) $$ Hsb
  icases Hsb' with ⟨Hob, Hsubb⟩
  ihave Hob' := (Entails.of_eq (ownBufs_SQ (F := F) d L)) $$ Hob
  icases Hob' with ⟨⟨%fs, Hs⟩, Hrestb⟩
  ihave Hss' := (SparseCore.Cfg.scopedSems0_S_elim (Val := Elt F) d ((L 0).castLE hcore0)) $$ Hss
  icases Hss' with ⟨Hown, Hsubs⟩
  ihave Hown' := (Entails.of_eq (ownSems0_SQ (F := F) d L)) $$ Hown
  icases Hown' with ⟨HsemA, HsemB, Hrest⟩
  ihave Hmw := ((K (F := F)).mayWaits_none (thr := SQ d L) hO) $$ Hlv
  ihave Ht' := (Entails.of_eq (pts_t (F := F) d L _).symm) $$ Ht
  ihave Hi' := (Entails.of_eq (pts_i (F := F) d L _).symm) $$ Hi
  ihave Ho' := (Entails.of_eq (pts_o (F := F) d L _).symm) $$ Ho
  ihave Hs' := (Entails.of_eq (pts_s (F := F) d L _).symm) $$ Hs
  -- the first transfer, its wait, the load
  sl_exec
  -- the word read is the scalar index, 7
  have hr : body.sl.r m d L fs = 7#32 := by
    unfold body.sl.r body.sl.dma0
    rw [h7 d]
    simp only [Memref.view_whole, View.write_whole_univ, View.read_whole, ReadAs.apply_same, View.readAt_apply]
    rfl
  have hchk : k0_chk1 (body.sl.r m d L fs) := by rw [hr]; decide
  -- the second transfer and its wait
  sl_exec
  have hrow : View.write (Elt F) (oW).view fo (body.sl.dma0_1 m d L fs hchk) Finset.univ = ROW m d := by
    unfold body.sl.dma0_1
    simp only [Memref.view_whole, View.write_whole_univ, ReadAs.apply_same]
    exact row_read (F := F) d _ hr hchk _
  rw [hrow]
  sl_step
  isplitl [Ht' Hi' Ho']
  · isplitl [Ht']; · iapply (Entails.of_eq (pts_t (F := F) d L _)); iexact Ht'
    isplitl [Hi']; · iapply (Entails.of_eq (pts_i (F := F) d L _)); iexact Hi'
    iapply (Entails.of_eq (pts_o (F := F) d L _)); iexact Ho'
  isplitl [Hs' Hrestb Hsubb]
  · iapply ((K (F := F)).scopedBufs_S_intro hF d ((L 0).castLE hcore0))
    isplitl [Hs' Hrestb]
    · rw [ownBufs_SQ]
      isplitl [Hs']
      · iexists _; iapply (Entails.of_eq (pts_s (F := F) d L _)); iexact Hs'
      · iexact Hrestb
    · iexact Hsubb
  isplitl [HsemA HsemB Hrest Hsubs]
  · iapply (SparseCore.Cfg.scopedSems0_S_intro (Val := Elt F) d ((L 0).castLE hcore0))
    isplitl [HsemA HsemB Hrest]
    · rw [ownSems0_SQ]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (by rw [hp]; rfl)
    rcases Finset.mem_insert.mp hp with hp | hp
    · exact .inr (by rw [hp]; rfl)
    · exact .inl hp
  · iexact HO

end Body

/-! ## The launch theorem's obligation -/

def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__lookup (coordsS c) tW (Memref.isWhole_whole _) iW (Memref.isWhole_whole _) oW (Memref.isWhole_whole _)
          sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem scalarObl (h7 : ∀ d, m (aLoc d) = fun _ => 7#32) : (K (F := F)).ScalarObl (D (F := F)) 𝒱 (P m) v₀ 0 := by
  intro d c O W hO _ _
  -- the kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body m d (coordsS ⟨_, hc⟩) h7 facts O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev t' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The one host operation, before the call: the scalar index laid into a one-element array. -/
abbrev opBc : HloOp τ sig (Elt F) := StableHlo.TRef.unary (.of main_arg1 : StableHlo.TRef sig ⟨S_, .i32⟩) main_call0.v0 (broadcastInDim S1 ![] bcast_S_S1)

/-- The TensorCore's arrays, all unscoped. -/
abbrev S4 : Finset (DevRef τ sig) := {t', a', i', o'}

omit [FloatOps F] in
theorem held_S4 (d : Dev nD) (W : Valuation τ sig (Elt F)) :
    (held (T d) S4 W : sProp 𝕄)
      = iprop((tLoc d ↦{fullShare} W t') ∗ (aLoc d ↦{fullShare} W a') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (aLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation, and the valuation the call starts from. -/
def V0 (d : Dev nD) : Valuation τ sig (Elt F) := fun b => m (d, b)
def V1 (d : Dev nD) : Valuation τ sig (Elt F) := (opBc (F := F)).result (V0 m d)

theorem unscoped_held (d : Dev nD) : (unscopedBufs d (fun b => m ((SparseCore.T d).loc b)) : sProp 𝕄) = held (T d) S4 (V0 m d) := by
  rw [unscopedBufs_eq, held_S4]; rfl

theorem V1_t (d : Dev nD) : V1 m d t' = m (tLoc d) :=
  (opBc (F := F)).result_of_not_mem _ (show t' ∉ ({i'} : Finset (DevRef τ sig)) by decide)
theorem V1_a (d : Dev nD) : V1 m d a' = m (aLoc d) :=
  (opBc (F := F)).result_of_not_mem _ (show a' ∉ ({i'} : Finset (DevRef τ sig)) by decide)
theorem V1_o (d : Dev nD) : V1 m d o' = m (oLoc d) :=
  (opBc (F := F)).result_of_not_mem _ (show o' ∉ ({i'} : Finset (DevRef τ sig)) by decide)
theorem V1_i (d : Dev nD) : V1 m d i' = IDX m d := by
  unfold V1
  exact StableHlo.unary_result main_arg1 main_v0 _ _ _ (V0 m d)

theorem held_V1 (d : Dev nD) :
    (held (T d) S4 ((opBc (F := F)).result (V0 m d)) : sProp 𝕄)
      = iprop(tPts m d ∗ (aLoc d ↦{fullShare} m (aLoc d)) ∗ iPts m d ∗ oLoc d ↦{fullShare} m (oLoc d)) := by
  show held (SparseCore.T d) S4 (V1 m d) = _
  rw [held_S4, V1_t, V1_a, V1_i, V1_o]

theorem st0_eq (d : Dev nD) : (bigSep Finset.univ fun c : Fin ((K (F := F)).nCore 0) => (P m).st 0 d c) = iprop(tPts m d ∗ iPts m d ∗ ∃ f, oPts d f) :=
  bigSep_univ_of_subsingleton (0 : Fin 1)
theorem dn0_eq (d : Dev nD) : (bigSep Finset.univ fun c : Fin ((K (F := F)).nCore 0) => (P m).dn 0 d c) = iprop(tPts m d ∗ iPts m d ∗ oPts d (ROW m d)) :=
  bigSep_univ_of_subsingleton (0 : Fin 1)

theorem hBc : (opBc (F := F)).bufs ⊆ S4 := show ({a', i'} : Finset (DevRef τ sig)) ⊆ S4 by decide

/-- What @main leaves the claim: the table and the scalar index at their launch contents, the result at row 7. -/
abbrev FIN (d : Dev nD) : sProp 𝕄 := iprop(tPts m d ∗ (aLoc d ↦{fullShare} m (aLoc d)) ∗ oPts d (ROW m d))

/-- @main on device `d`'s TensorCore: the index laid into a one-element array, then the call — the table, that array and
    the result row to the SparseCore's sequencer and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_atleast_1d.body, wp_bind, wp_pure]
  iintro ⟨#Hctx, Hst, ⟨Hb, Hheld, -, -⟩, -⟩
  iapply (wp_hlo_within 𝒱 (SparseCore.T d) none Set.univ (op := opBc) (S := S4) hBc (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ht, Ha, Hi, Ho⟩
  iapply ((K (F := F)).wp_run (D (F := F)) 𝒱 (EH := EH) (P := P m) κ d 0) $$ [Hst Ht Hi Ho Hb Ha]
  isplitr; · iexact Hctx
  isplitl [Hst]; · iexact Hst
  isplitl [Ht Hi Ho]
  · rw [st0_eq]
    isplitl [Ht]; · iexact Ht
    isplitl [Hi]; · iexact Hi
    iexists _; iexact Ho
  iintro ⟨Hst, Hdn⟩
  ihave Hdn' := (Entails.of_eq (dn0_eq m d)) $$ Hdn
  icases Hdn' with ⟨Ht, Hi, Ho⟩
  imodintro
  isplitl [Hst]; · iexact Hst
  isplitl [Ht]; · iexact Ht
  isplitl [Ha]; · iexact Ha
  iexact Ho

def fq (d : Dev nD) (s' : Phys nD τ sig (Elt F)) : Prop :=
  s'.mem.mem (oLoc d) = ROW m d ∧ s'.mem.mem (tLoc d) = m (tLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ht, Ha, Ho⟩, HSI⟩
  icombine HSI Ht gives %ht
  icombine HSI Ha gives %ha
  icombine HSI Ho gives %ho
  ipureintro
  exact ⟨funext fun i => ho i (Finset.mem_univ i), funext fun i => ht i (Finset.mem_univ i), funext fun i => ha i (Finset.mem_univ i)⟩

/-! ## The program's run -/

def QC : PUnit × MemSt nD τ sig (Elt F) → Prop := fun r => ∀ c : Dev nD,
  r.2.mem (oLoc c) = ROW m c ∧ r.2.mem (tLoc c) = m (tLoc c) ∧ r.2.mem (aLoc c) = m (aLoc c)

/-- From a memory whose scalar index is 7: every weakly fair execution of the device's threads terminates, nothing
    faulting, the result row at row 7 of the table, the table and the index as they were. -/
theorem run_main [∀ e, Nonempty (Elt F e)] (h7 : ∀ d, m (aLoc d) = fun _ => 7#32) : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m h7)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Kernel.Run

end
-- ==== Proof.KernelIdealRun.lean ====
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«208067_g26070451486926_retrytranche2_1712_11_alg».proof.Proof.Gen.KernelIdeal
import proofs.«208067_g26070451486926_retrytranche2_1712_11_alg».proof.Proof.Gen.KernelIdeal.Skeleton

/-!
# The kernel's run

One row of a 100 x 128 table is taken at a scalar index. @main on the TensorCore lays the scalar into a one-element
array and calls a kernel on one SparseCore's sequencer; the sequencer copies that array into its one word of scalar
memory and waits for the copy, reads the word, and copies the table's row at that word onto the 1 x 128 result and
waits. Each copy completes on a semaphore of its own and is waited for before anything touches its source or
destination again, so the two transfers follow the schedule-free protocol: a counter per semaphore, no rounds.

From a memory whose scalar index is 7 the word read is 7, the one-row slice at offset 7 lies inside the table (the
side condition the body assumes of the word), and the result ends at row 7: entry (0, j) is the table's entry (7, j).
The run is stated for any float instance: every weakly fair execution of the device's threads terminates, nothing
faulting, with the result at that row and the table and the index unchanged.
-/

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the four arrays, and what they hold -/

variable (m : (ℓ : Loc nD τ sig) → Buf (Elt F) ℓ) (ρ : Dev nD → PrngReg)

-- the kernel's memrefs, spelt as the body table passes them
local notation "tW" => (Memref.whole Cert.KernelIdeal.main_arg0_scs : Memref Cert.KernelIdeal.sig Kind.scScalar Space.hbm Cert.KernelIdeal.S100x128 EltTy.f32)
local notation "iW" => (Memref.whole Cert.KernelIdeal.main_v0_scs : Memref Cert.KernelIdeal.sig Kind.scScalar Space.hbm Cert.KernelIdeal.S1 EltTy.i32)
local notation "oW" => (Memref.whole Cert.KernelIdeal.main_v1_scs : Memref Cert.KernelIdeal.sig Kind.scScalar Space.hbm Cert.KernelIdeal.S1x128 EltTy.f32)
local notation "sW" => (Memref.whole Cert.KernelIdeal.cc0_scratch0 : Memref Cert.KernelIdeal.sig Kind.scScalar Space.smem Cert.KernelIdeal.S1 EltTy.i32)

/-- The table, the scalar index, the index as a one-element array, the result row: the TensorCore's names. -/
abbrev tLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

variable [FloatOps F]

/-- The one-element index array @main makes of the scalar before the call. -/
abbrev IDX (d : Dev nD) : Buf (Elt F) (iLoc d) := broadcastInDim S1 ![] bcast_S_S1 (m (aLoc d))

/-- Row 7 of the table, as a 1 x 128 array: entry (0, j) is the table's entry (7, j). -/
def ROW (d : Dev nD) : Buf (Elt F) (oLoc d) := fun i => m (tLoc d) (ix2 (7 : Fin 100) (i 1))

abbrev tPts (d : Dev nD) : sProp 𝕄 := tLoc d ↦{fullShare} m (tLoc d)
abbrev iPts (d : Dev nD) : sProp 𝕄 := iLoc d ↦{fullShare} IDX m d
abbrev oPts (d : Dev nD) (f : Buf (Elt F) (oLoc d)) : sProp 𝕄 := oLoc d ↦{fullShare} f

/-- What the call hands the one SparseCore and takes back: the table and the index array at their contents, the result
    row at whatever it holds going in and at row 7 of the table coming back. -/
def P : (K (F := F)).Pay (nD := nD) (Val := Elt F) (Name := ℕ) (U := UU) where
  st := fun _ d _ => iprop(tPts m d ∗ iPts m d ∗ ∃ f, oPts d f)
  dn := fun _ d _ => iprop(tPts m d ∗ iPts m d ∗ oPts d (ROW m d))
  go := fun _ _ _ _ => iprop(emp)
  td := fun _ _ _ _ => iprop(emp)
  x := fun _ _ => iprop(emp)

instance P_storable : (P (F := F) m).IsStorable where
  st _ d _ := (inferInstance : BI.Storable (upEmb : UEmb _ 𝕄) iprop(tPts m d ∗ iPts m d ∗ ∃ f, oPts d f))
  dn _ d _ := (inferInstance : BI.Storable (upEmb : UEmb _ 𝕄) iprop(tPts m d ∗ iPts m d ∗ oPts d (ROW m d)))
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## The kernel's body on the sequencer -/

section Body

variable (d : Dev nD) (L : grid0.Coords)

/-- The sequencer that runs the body at grid point `L`. -/
abbrev SQ : Thread nD τ := S d ((L 0).castLE hcore0)

/-- The two transfers' semaphores, as cells of that sequencer. -/
abbrev cellA : GSem nD τ sig := (SQ d L, .dma cc0_scoped0.sem)
abbrev cellB : GSem nD τ sig := (SQ d L, .dma cc0_scoped1.sem)

omit [FloatOps F] in
theorem ownSems0_SQ :
    (ownSems0 (SQ d L) : sProp 𝕄)
      = iprop(semVal (cellA d L) 0 ∗ semVal (cellB d L) 0
          ∗ bigSep (((ownCells (SQ d L)).erase (cellA d L)).erase (cellB d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scScalar = true; decide⟩),
    SparseCore.bigSep_erase' (Finset.mem_erase.mpr ⟨by simp [cellA, cellB]; decide, (mem_ownCells (g := cellB d L)).mpr ⟨rfl, by
      show (SemLoc.dma cc0_scoped1.sem : SemLoc sig).isScoped .scScalar = true; decide⟩⟩)]

omit [FloatOps F] in
/-- The scalar memory's one word is among the sequencer's own buffers: they are it, at some contents, and the rest. -/
theorem ownBufs_SQ :
    (ownBufs (SQ d L) : sProp 𝕄)
      = iprop((∃ f, (SQ d L).loc cc0_scratch0 ↦{fullShare} f)
          ∗ bigSep ((ownRefs (τ := τ) (.scScalar ((L 0).castLE hcore0))).erase ((Proc.scScalar ((L 0).castLE hcore0)).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

omit [FloatOps F] in
theorem pts_t (f : Buf (Elt F) (tLoc d)) :
    ((tW).view.loc (SQ d L) ↦{fullShare} f : sProp 𝕄) = tLoc d ↦{fullShare} f := by
  simp only [Memref.view_whole, View.set_whole]
omit [FloatOps F] in
theorem pts_i (f : Buf (Elt F) (iLoc d)) :
    ((iW).view.loc (SQ d L) ↦{fullShare} f : sProp 𝕄) = iLoc d ↦{fullShare} f := by
  simp only [Memref.view_whole, View.set_whole]
omit [FloatOps F] in
theorem pts_o (f : Buf (Elt F) (oLoc d)) :
    ((oW).view.loc (SQ d L) ↦{fullShare} f : sProp 𝕄) = oLoc d ↦{fullShare} f := by
  simp only [Memref.view_whole, View.set_whole]
omit [FloatOps F] in
theorem pts_s (f : Buf (Elt F) ((SQ d L).loc cc0_scratch0)) :
    ((sW).view.loc (SQ d L) ↦{fullShare} f : sProp 𝕄) = (SQ d L).loc cc0_scratch0 ↦{fullShare} f := by
  simp only [Memref.view_whole, View.set_whole]

omit [FloatOps F] in
/-- The one-row slice of the table at row offset 7 reads row 7: entry (0, j) of the slice is entry (7, j) of the
    table (a slice's entry sits at offset + coordinate on each axis). -/
theorem row_read (v : BitVec 32) (hv : v = 7#32) (hw : k0_chk1 v) (f : Buf (Elt F) (tLoc d)) :
    View.read (Elt F) ((tW).slice (Rect.unit (s := S100x128) (k0_off1 v) S1x128.size (k0_off1_inb v hw)) (fun _ => rfl)).view f
      = fun i => f (ix2 (7 : Fin 100) (i 1)) := by
  subst hv
  funext i
  rw [View.read_apply, cast_eq]
  congr 1
  funext a
  refine Fin.ext ?_
  match a with
  | ⟨0, _⟩ =>
    show 7 + 1 * (i 0).val = 7
    have := (i 0).isLt
    have h1 : (i 0).val < 1 := this
    omega
  | ⟨1, _⟩ =>
    show 0 + 1 * (i 1).val = (i 1).val
    omega

/-- The kernel on the sequencer: the index array copied into scalar memory and waited for, the word read (7, by the
    precondition: inside the table), row 7 of the table copied onto the result row and waited for. -/
theorem body (h7 : ∀ d, m (aLoc d) = fun _ => 7#32) (hF : (K (F := F)).Facts) (O : CellTallies nD τ sig (HIx 1)) (W : Waits sig (HIx 1)) (hO : ∀ g, O g none = 0) :
    iprop(levAts (K (F := F)).L (K (F := F)).lev ∗ emp ∗ (tPts m d ∗ iPts m d ∗ ∃ f, oPts d f)
        ∗ scopedBufs (SQ d L) ∗ scopedSems0 (SQ d L) ∗ owes (SQ d L) O W)
      ⊢ wp frame (wpE (defs₀ (F := F)) 𝒱₀ (SQ d L) none) Set.univ
          (cc0__lookup L tW (Memref.isWhole_whole _) iW (Memref.isWhole_whole _) oW (Memref.isWhole_whole _) sW (Memref.isWhole_whole _) cc0_scoped0 cc0_scoped1)
          fun _ => iprop((tPts m d ∗ iPts m d ∗ oPts d (ROW m d)) ∗ scopedBufs (SQ d L) ∗ scopedSems0 (SQ d L)
            ∗ ∃ W', ⌜∀ p ∈ W', p ∈ W ∨ p.2 = none⌝ ∗ owes (SQ d L) O W') := by
  simp only [cc0__lookup_eq_skeleton]; unfold cc0__lookup_skel
  iintro ⟨#Hlv, -, ⟨Ht, Hi, %fo, Ho⟩, Hsb, Hss, HO⟩
  ihave Hsb' := ((K (F := F)).scopedBufs_S_elim hF d ((L 0).castLE hcore0)) $$ Hsb
  icases Hsb' with ⟨Hob, Hsubb⟩
  ihave Hob' := (Entails.of_eq (ownBufs_SQ (F := F) d L)) $$ Hob
  icases Hob' with ⟨⟨%fs, Hs⟩, Hrestb⟩
  ihave Hss' := (SparseCore.Cfg.scopedSems0_S_elim (Val := Elt F) d ((L 0).castLE hcore0)) $$ Hss
  icases Hss' with ⟨Hown, Hsubs⟩
  ihave Hown' := (Entails.of_eq (ownSems0_SQ (F := F) d L)) $$ Hown
  icases Hown' with ⟨HsemA, HsemB, Hrest⟩
  ihave Hmw := ((K (F := F)).mayWaits_none (thr := SQ d L) hO) $$ Hlv
  ihave Ht' := (Entails.of_eq (pts_t (F := F) d L _).symm) $$ Ht
  ihave Hi' := (Entails.of_eq (pts_i (F := F) d L _).symm) $$ Hi
  ihave Ho' := (Entails.of_eq (pts_o (F := F) d L _).symm) $$ Ho
  ihave Hs' := (Entails.of_eq (pts_s (F := F) d L _).symm) $$ Hs
  -- the first transfer, its wait, the load
  sl_exec
  -- the word read is the scalar index, 7
  have hr : body.sl.r m d L fs = 7#32 := by
    unfold body.sl.r body.sl.dma0
    rw [h7 d]
    simp only [Memref.view_whole, View.write_whole_univ, View.read_whole, ReadAs.apply_same, View.readAt_apply]
    rfl
  have hchk : k0_chk1 (body.sl.r m d L fs) := by rw [hr]; decide
  -- the second transfer and its wait
  sl_exec
  have hrow : View.write (Elt F) (oW).view fo (body.sl.dma0_1 m d L fs hchk) Finset.univ = ROW m d := by
    unfold body.sl.dma0_1
    simp only [Memref.view_whole, View.write_whole_univ, ReadAs.apply_same]
    exact row_read (F := F) d _ hr hchk _
  rw [hrow]
  sl_step
  isplitl [Ht' Hi' Ho']
  · isplitl [Ht']; · iapply (Entails.of_eq (pts_t (F := F) d L _)); iexact Ht'
    isplitl [Hi']; · iapply (Entails.of_eq (pts_i (F := F) d L _)); iexact Hi'
    iapply (Entails.of_eq (pts_o (F := F) d L _)); iexact Ho'
  isplitl [Hs' Hrestb Hsubb]
  · iapply ((K (F := F)).scopedBufs_S_intro hF d ((L 0).castLE hcore0))
    isplitl [Hs' Hrestb]
    · rw [ownBufs_SQ]
      isplitl [Hs']
      · iexists _; iapply (Entails.of_eq (pts_s (F := F) d L _)); iexact Hs'
      · iexact Hrestb
    · iexact Hsubb
  isplitl [HsemA HsemB Hrest Hsubs]
  · iapply (SparseCore.Cfg.scopedSems0_S_intro (Val := Elt F) d ((L 0).castLE hcore0))
    isplitl [HsemA HsemB Hrest]
    · rw [ownSems0_SQ]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (by rw [hp]; rfl)
    rcases Finset.mem_insert.mp hp with hp | hp
    · exact .inr (by rw [hp]; rfl)
    · exact .inl hp
  · iexact HO

end Body

/-! ## The launch theorem's obligation -/

def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__lookup (coordsS c) tW (Memref.isWhole_whole _) iW (Memref.isWhole_whole _) oW (Memref.isWhole_whole _)
          sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem scalarObl (h7 : ∀ d, m (aLoc d) = fun _ => 7#32) : (K (F := F)).ScalarObl (D (F := F)) 𝒱 (P m) v₀ 0 := by
  intro d c O W hO _ _
  -- the kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body m d (coordsS ⟨_, hc⟩) h7 facts O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev t' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The one host operation, before the call: the scalar index laid into a one-element array. -/
abbrev opBc : HloOp τ sig (Elt F) := StableHlo.TRef.unary (.of main_arg1 : StableHlo.TRef sig ⟨S_, .i32⟩) main_call0.v0 (broadcastInDim S1 ![] bcast_S_S1)

/-- The TensorCore's arrays, all unscoped. -/
abbrev S4 : Finset (DevRef τ sig) := {t', a', i', o'}

omit [FloatOps F] in
theorem held_S4 (d : Dev nD) (W : Valuation τ sig (Elt F)) :
    (held (T d) S4 W : sProp 𝕄)
      = iprop((tLoc d ↦{fullShare} W t') ∗ (aLoc d ↦{fullShare} W a') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (aLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation, and the valuation the call starts from. -/
def V0 (d : Dev nD) : Valuation τ sig (Elt F) := fun b => m (d, b)
def V1 (d : Dev nD) : Valuation τ sig (Elt F) := (opBc (F := F)).result (V0 m d)

theorem unscoped_held (d : Dev nD) : (unscopedBufs d (fun b => m ((SparseCore.T d).loc b)) : sProp 𝕄) = held (T d) S4 (V0 m d) := by
  rw [unscopedBufs_eq, held_S4]; rfl

theorem V1_t (d : Dev nD) : V1 m d t' = m (tLoc d) :=
  (opBc (F := F)).result_of_not_mem _ (show t' ∉ ({i'} : Finset (DevRef τ sig)) by decide)
theorem V1_a (d : Dev nD) : V1 m d a' = m (aLoc d) :=
  (opBc (F := F)).result_of_not_mem _ (show a' ∉ ({i'} : Finset (DevRef τ sig)) by decide)
theorem V1_o (d : Dev nD) : V1 m d o' = m (oLoc d) :=
  (opBc (F := F)).result_of_not_mem _ (show o' ∉ ({i'} : Finset (DevRef τ sig)) by decide)
theorem V1_i (d : Dev nD) : V1 m d i' = IDX m d := by
  unfold V1
  exact StableHlo.unary_result main_arg1 main_v0 _ _ _ (V0 m d)

theorem held_V1 (d : Dev nD) :
    (held (T d) S4 ((opBc (F := F)).result (V0 m d)) : sProp 𝕄)
      = iprop(tPts m d ∗ (aLoc d ↦{fullShare} m (aLoc d)) ∗ iPts m d ∗ oLoc d ↦{fullShare} m (oLoc d)) := by
  show held (SparseCore.T d) S4 (V1 m d) = _
  rw [held_S4, V1_t, V1_a, V1_i, V1_o]

theorem st0_eq (d : Dev nD) : (bigSep Finset.univ fun c : Fin ((K (F := F)).nCore 0) => (P m).st 0 d c) = iprop(tPts m d ∗ iPts m d ∗ ∃ f, oPts d f) :=
  bigSep_univ_of_subsingleton (0 : Fin 1)
theorem dn0_eq (d : Dev nD) : (bigSep Finset.univ fun c : Fin ((K (F := F)).nCore 0) => (P m).dn 0 d c) = iprop(tPts m d ∗ iPts m d ∗ oPts d (ROW m d)) :=
  bigSep_univ_of_subsingleton (0 : Fin 1)

theorem hBc : (opBc (F := F)).bufs ⊆ S4 := show ({a', i'} : Finset (DevRef τ sig)) ⊆ S4 by decide

/-- What @main leaves the claim: the table and the scalar index at their launch contents, the result at row 7. -/
abbrev FIN (d : Dev nD) : sProp 𝕄 := iprop(tPts m d ∗ (aLoc d ↦{fullShare} m (aLoc d)) ∗ oPts d (ROW m d))

/-- @main on device `d`'s TensorCore: the index laid into a one-element array, then the call — the table, that array and
    the result row to the SparseCore's sequencer and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_atleast_1d.body, wp_bind, wp_pure]
  iintro ⟨#Hctx, Hst, ⟨Hb, Hheld, -, -⟩, -⟩
  iapply (wp_hlo_within 𝒱 (SparseCore.T d) none Set.univ (op := opBc) (S := S4) hBc (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ht, Ha, Hi, Ho⟩
  iapply ((K (F := F)).wp_run (D (F := F)) 𝒱 (EH := EH) (P := P m) κ d 0) $$ [Hst Ht Hi Ho Hb Ha]
  isplitr; · iexact Hctx
  isplitl [Hst]; · iexact Hst
  isplitl [Ht Hi Ho]
  · rw [st0_eq]
    isplitl [Ht]; · iexact Ht
    isplitl [Hi]; · iexact Hi
    iexists _; iexact Ho
  iintro ⟨Hst, Hdn⟩
  ihave Hdn' := (Entails.of_eq (dn0_eq m d)) $$ Hdn
  icases Hdn' with ⟨Ht, Hi, Ho⟩
  imodintro
  isplitl [Hst]; · iexact Hst
  isplitl [Ht]; · iexact Ht
  isplitl [Ha]; · iexact Ha
  iexact Ho

def fq (d : Dev nD) (s' : Phys nD τ sig (Elt F)) : Prop :=
  s'.mem.mem (oLoc d) = ROW m d ∧ s'.mem.mem (tLoc d) = m (tLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ht, Ha, Ho⟩, HSI⟩
  icombine HSI Ht gives %ht
  icombine HSI Ha gives %ha
  icombine HSI Ho gives %ho
  ipureintro
  exact ⟨funext fun i => ho i (Finset.mem_univ i), funext fun i => ht i (Finset.mem_univ i), funext fun i => ha i (Finset.mem_univ i)⟩

/-! ## The program's run -/

def QC : PUnit × MemSt nD τ sig (Elt F) → Prop := fun r => ∀ c : Dev nD,
  r.2.mem (oLoc c) = ROW m c ∧ r.2.mem (tLoc c) = m (tLoc c) ∧ r.2.mem (aLoc c) = m (aLoc c)

/-- From a memory whose scalar index is 7: every weakly fair execution of the device's threads terminates, nothing
    faulting, the result row at row 7 of the table, the table and the index as they were. -/
theorem run_main [∀ e, Nonempty (Elt F e)] (h7 : ∀ d, m (aLoc d) = fun _ => 7#32) : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m h7)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.KernelIdeal.Run

end
-- ==== Proof.RefRun.lean ====
import proofs.«208067_g26070451486926_retrytranche2_1712_11_alg».proof.Proof.Gen.ReferenceIdeal
import Idealize.ShloMosaic.Lib.StableHlo.Run

/-!
# The reference's run, read back

The reference lays the scalar index into a one-element array and takes that row of the table with out-of-range
handling: a negative index is moved up by the number of rows (100), the row is gathered at the index clamped into
the table, and the whole row is replaced by NaN when the moved index is not within 0..99. Here its host program is
written as the list of its operations, the calls unfolded, and its run is read back: every weakly fair execution
ends with the result at one pure term `out` of the two arguments, the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The index as the take reads it: a negative index counts from the end (100 is added), as a 1 x 1 array. -/
def wrapped (a : IVec S_ 32) : IVec S1x1 32 :=
  let i1 : IVec S1 32 := broadcastInDim S1 ![] bcast_S_S1 a
  broadcastInDim S1x1 ![0] bcast_S1_S1x1_0
    (select (cmpi .slt i1 (broadcastInDim S1 ![] bcast_S_S1 (constantI S_ 32 0#32)))
      (addi i1 (broadcastInDim S1 ![] bcast_S_S1 (constantI S_ 32 100#32))) i1)

/-- Whether the moved index names a row: 0 ≤ index ≤ 99. -/
def inRange (w : IVec S1x1 32) : IVec S1 1 :=
  Host.reduce IntOp.andi
    (andi (cmpi .sge w (broadcastInDim S1x1 ![] bcast_S_S1x1 (constantI S_ 32 0#32)))
      (cmpi .sle w (broadcastInDim S1x1 ![1] bcast_S1_S1x1_1 (constantI S1 32 99#32))))
    (constantI S_ 1 1#1) reducesTo_S1x1_S1_d1 h_S_

/-- The reference's result as one term of its arguments: the gathered row where the index names a row, NaN otherwise. -/
def out (x : FVec F S100x128 .f32) (a : IVec S_ 32) : FVec F S1x128 .f32 :=
  select (broadcastInDim S1x128 ![0] bcast_S1_S1x128_0 (inRange (wrapped a)))
    (Host.gather gather_S100x128_S1x1_S1x128_1_0_n_n_0_1_1128 x (wrapped a))
    (broadcastInDim S1x128 ![] bcast_S_S1x128 (constant S_ .f32 0x7FC00000#32))

/-- @main's operations in order, the calls unfolded: the index laid into a one-element array; then the take — the zero
    and its comparison, 100 and the sum, the choice between them, the index as a 1 x 1 array, the two bounds and the
    two comparisons, their conjunction reduced along the index vector, the gather, the mask laid across the row, NaN
    laid across the row, the choice. -/
abbrev ops : List (HloOp τ sig (Elt F)) :=
  [ TRef.unary (.of main_arg1 : TRef sig ⟨S_, .i32⟩) main_call0.v0 (broadcastInDim S1 ![] bcast_S_S1),
    TRef.nullary main_call1.c (constantI S_ 32 0#32),
    TRef.unary main_call1.c main_call1.v0 (broadcastInDim S1 ![] bcast_S_S1),
    TRef.binary (.of main_v0 : TRef sig ⟨S1, .i32⟩) main_call1.v0 main_call1.v1 (cmpi .slt),
    TRef.nullary main_call1.c_0 (constantI S_ 32 100#32),
    TRef.unary main_call1.c_0 main_call1.v2 (broadcastInDim S1 ![] bcast_S_S1),
    TRef.binary (.of main_v0 : TRef sig ⟨S1, .i32⟩) main_call1.v2 main_call1.v3 addi,
    TRef.ternary main_call1.v1 main_call1.v3 (.of main_v0 : TRef sig ⟨S1, .i32⟩) main_call1.call0.v0 select,
    TRef.unary main_call1.call0.v0 main_call1.v5 (broadcastInDim S1x1 ![0] bcast_S1_S1x1_0),
    TRef.nullary main_call1.c_1 (constantI S1 32 99#32),
    TRef.nullary main_call1.c_2 (constantI S_ 32 0#32),
    TRef.unary main_call1.c_2 main_call1.v6 (broadcastInDim S1x1 ![] bcast_S_S1x1),
    TRef.binary main_call1.v5 main_call1.v6 main_call1.v7 (cmpi .sge),
    TRef.unary main_call1.c_1 main_call1.v8 (broadcastInDim S1x1 ![1] bcast_S1_S1x1_1),
    TRef.binary main_call1.v5 main_call1.v8 main_call1.v9 (cmpi .sle),
    TRef.binary main_call1.v7 main_call1.v9 main_call1.v10 andi,
    TRef.nullary main_call1.c_3 (constantI S_ 1 1#1),
    TRef.binary main_call1.v10 main_call1.c_3 main_call1.v11 (fun x v => Host.reduce IntOp.andi x v reducesTo_S1x1_S1_d1 h_S_),
    TRef.binary (.of main_arg0 : TRef sig ⟨S100x128, .f32⟩) main_call1.v5 main_call1.v12 (fun x i => Host.gather gather_S100x128_S1x1_S1x128_1_0_n_n_0_1_1128 x i),
    TRef.unary main_call1.v11 main_call1.v13 (broadcastInDim S1x128 ![0] bcast_S1_S1x128_0),
    TRef.nullary main_call1.cst (constant S_ .f32 0x7FC00000#32),
    TRef.unary main_call1.cst main_call1.v14 (broadcastInDim S1x128 ![] bcast_S_S1x128),
    TRef.ternary main_call1.v13 main_call1.v12 main_call1.v14 main_call1.v15 select ]

set_option maxRecDepth 1024 in
/-- @main is that straight line: the functions' definitions unfolded at their calls, sequencing reassociated. -/
theorem main_eq (c : Dev nD) : main (F := F) c = seq ops := by
  simp only [main, fn_atleast_1d.body, fn_take.body, fn_where.body, seq, bind_assoc, pure_bind]

set_option maxRecDepth 8192 in
/-- The operations' fold at the result buffer is `out` of the arguments' contents. -/
theorem out_eq (V : Valuation τ sig (Elt F)) :
    after ops V (main_v1 : DevRef τ sig) = out (V (main_arg0 : DevRef τ sig)) (V (main_arg1 : DevRef τ sig)) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters: every weakly fair execution of the reference terminates with the result at
    `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.LibGatherScatter.lean ====
import Idealize.ShloMosaic.Lib.ValueIdx
import Idealize.ShloMosaic.PureOps.Ideal
import Idealize.ShloMosaic.PureOps.Ideal.Laws
import Idealize.ShloMosaic.PureOps.Contract

/-!
# A gather and an accumulating scatter along the first axis, read at an index

The operand is an array over nodes (rank 1, or rank 2 with a feature axis); the index array has one 32-bit word per
edge, shaped (edges, 1).

* A gather reads, for edge e, the operand at the word read signed and clamped into the node range
  (and, for a rank-2 operand, at the same feature coordinate).
* An accumulating scatter adds, at node n, every update whose word read signed equals n (and, for rank 2, whose
  feature coordinate is the same); a word outside the node range is dropped.
-/

noncomputable section

open scoped BigOperators

namespace Cert.LibGS

open Idealize.ShloMosaic Idealize.ShloMosaic.ValueIdx

/-! ## Gathers -/

section Gather
variable {α : Type}

/-- Dimension numbers of a gather of a rank-1 operand of extent N by E one-word start indices. -/
abbrev gDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The rank-1 gather at edge e: the operand at the word of e, read signed and clamped into [0, N - 1]. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gDims1 N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (gDims1 N E wf).start (ix1 e) idx 0 + (gDims1 N E wf).batchCoord (ix1 e) 0
    + (gDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E wf).startIndexMap from List.mem_singleton.mpr rfl)]
  have hsi : (gDims1 N E wf).siIdx (ix1 e) ⟨List.idxOf (0 : Fin 1) (gDims1 N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Dimension numbers of a gather of rows of a rank-2 operand (N rows of K) by E one-word start indices. -/
abbrev gDims2 (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The row gather at (e, j): the operand at (the word of e read signed and clamped into [0, N - 1], j). -/
theorem gather2_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (j : Fin K) :
    Host.gather (gDims2 N K E wf) x idx (ix2 e j)
      = x (ix2 ⟨min (idx (ix2 e 0)).toInt.toNat (N - 1), by omega⟩ j) := by
  unfold Host.gather
  congr 1
  funext a
  refine Fin.ext ?_
  show (gDims2 N K E wf).start (ix2 e j) idx a + (gDims2 N K E wf).batchCoord (ix2 e j) a
    + (gDims2 N K E wf).offCoord (ix2 e j) a = _
  rw [GatherDims.batchCoord_eq_zero _ _ _ List.not_mem_nil]
  have ha : a = (0 : Fin 2) ∨ a = (1 : Fin 2) := by
    rcases a with ⟨v, hv⟩
    have hv2 : v < 2 := hv
    interval_cases v
    · exact Or.inl rfl
    · exact Or.inr rfl
  rcases ha with rfl | rfl
  · rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gDims2 N K E wf).startIndexMap from List.mem_singleton.mpr rfl)]
    have hsi : (gDims2 N K E wf).siIdx (ix2 e j) ⟨List.idxOf (0 : Fin 2) (gDims2 N K E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N K E wf).startIndexMap := by
      show (1 : Fin 2) ∉ [(0 : Fin 2)]
      decide
    have h2 : (1 : Fin 2) ∈ (gDims2 N K E wf).sKept := by
      refine (GatherDims.mem_sKept _ _).mpr ⟨?_, List.not_mem_nil⟩
      show (1 : Fin 2) ∉ [(0 : Fin 2)]
      decide
    unfold GatherDims.start
    rw [dif_neg h1]
    unfold GatherDims.offCoord
    rw [dif_pos h2]
    simp only [Nat.zero_add]
    rfl

end Gather

/-! ## Accumulating scatters -/

section Scatter

/-- Dimension numbers of a scatter into a rank-1 operand of extent N of E updates at one-word indices. -/
abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e lands on node n exactly when its word, read signed, is n. -/
theorem resultIdx1_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hstart : ∀ a, (sDims1 N E wf).start (ix1 e) idx a = (idx (ix2 e 0)).toInt := by
    intro a
    obtain rfl : a = 0 := Subsingleton.elim _ _
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : ∀ a, (sDims1 N E wf).window (ix1 e) a = 0 := by
    intro a
    obtain rfl : a = 0 := Subsingleton.elim _ _
    unfold ScatterDims.window
    rw [dif_neg (by simp [ScatterDims.sKept, Shape.kept])]
  unfold ScatterDims.resultIdx?
  split
  · rename_i h
    rw [Option.some.injEq]
    constructor
    · intro hf
      have h0 := congrArg (fun f => ((f 0 : Fin N) : Nat)) hf
      have hb := h 0
      simp only [hstart, hwin] at h0 hb
      simp only [Nat.cast_zero, add_zero] at h0 hb
      have : ((idx (ix2 e 0)).toInt.toNat : Int) = (n.val : Int) := by exact_mod_cast h0
      omega
    · intro hv
      funext a
      obtain rfl : a = 0 := Subsingleton.elim _ _
      refine Fin.ext ?_
      show ((sDims1 N E wf).start (ix1 e) idx 0 + ((sDims1 N E wf).window (ix1 e) 0 : Nat)).toNat = n.val
      rw [hstart, hwin, hv]; simp
  · rename_i h
    constructor
    · intro hf; exact absurd hf (by simp)
    · intro hv
      exfalso; apply h
      intro a
      rw [hstart, hwin, hv]
      obtain rfl : a = 0 := Subsingleton.elim _ _
      have := n.isLt
      constructor
      · simp
      · show ((n.val : Int) + ((0 : Nat) : Int)) < ((N : Nat) : Int)
        omega

/-- The rank-1 accumulating scatter at node n: the operand there plus the updates whose word is n. -/
theorem scatterAdd1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) (p : Fin E → Prop) [DecidablePred p]
    (hp : ∀ e, p e ↔ (idx (ix2 e 0)).toInt = (n.val : Int)) :
    Ideal.hostScatterAdd (sDims1 N E wf) x idx upd (ix1 n)
      = x (ix1 n) + ∑ e ∈ Finset.univ.filter p, upd (ix1 e) := by
  unfold Ideal.hostScatterAdd
  congr 1
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (hp _).mpr ((resultIdx1_iff wf idx _ n).mp this)⟩
  · intro e he
    exact Finset.mem_filter.mpr ⟨Finset.mem_univ _,
      (resultIdx1_iff wf idx e n).mpr ((hp e).mp (Finset.mem_filter.mp he).2)⟩
  · intro j _; exact (eq_ix1 j).symm
  · intro e _; rfl
  · intro j _; exact congrArg upd (eq_ix1 j)

/-- An axis of a rank-2 array is the first or the second. -/
theorem fin2_cases (a : Fin 2) : a = 0 ∨ a = 1 := by
  rcases a with ⟨v, hv⟩
  interval_cases v
  · exact Or.inl rfl
  · exact Or.inr rfl

/-- Dimension numbers of a scatter of E rows of K into a rank-2 operand (N rows of K) at one-word indices. -/
abbrev sDims2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Update (e, j') lands on (n, j) exactly when the word of e, read signed, is n and j' = j. -/
theorem resultIdx2_iff {N K E w : Nat} (wf : ScatterDims.WF ⟨2, ![N, K]⟩ ⟨2, ![E, 1]⟩ ⟨2, ![E, K]⟩ [1] [0] [0] 1)
    (idx : IVec ⟨2, ![E, 1]⟩ w) (e : Fin E) (j' : Fin K) (n : Fin N) (j : Fin K) :
    (sDims2 N K E wf).resultIdx? (ix2 e j') idx = some (ix2 n j)
      ↔ (idx (ix2 e 0)).toInt = (n.val : Int) ∧ j' = j := by
  have hstart0 : (sDims2 N K E wf).start (ix2 e j') idx (0 : Fin 2) = (idx (ix2 e 0)).toInt := by
    unfold ScatterDims.start
    rw [dif_pos (show (0 : Fin 2) ∈ (sDims2 N K E wf).scatterDimsToOperandDims from List.mem_singleton.mpr rfl)]
    have hsi : (sDims2 N K E wf).siIdx (ix2 e j') ⟨List.idxOf (0 : Fin 2) (sDims2 N K E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (sDims2 N K E wf).start (ix2 e j') idx (1 : Fin 2) = 0 := by
    unfold ScatterDims.start
    rw [dif_neg (show (1 : Fin 2) ∉ [(0 : Fin 2)] by decide)]
  have hwin0 : (sDims2 N K E wf).window (ix2 e j') (0 : Fin 2) = 0 := by
    unfold ScatterDims.window
    rw [dif_neg (by simp [ScatterDims.sKept, Shape.kept])]
  have hwin1 : (sDims2 N K E wf).window (ix2 e j') (1 : Fin 2) = j'.val := by
    unfold ScatterDims.window
    rw [dif_pos (by simp [ScatterDims.sKept, Shape.kept, List.finRange])]
    rfl
  unfold ScatterDims.resultIdx?
  split
  · rename_i h
    rw [Option.some.injEq]
    constructor
    · intro hf
      have h0 := congrArg (fun f => ((f (0 : Fin 2) : Fin N) : Nat)) hf
      have h1 := congrArg (fun f => ((f (1 : Fin 2) : Fin K) : Nat)) hf
      have hb := h (0 : Fin 2)
      simp only [hstart0, hwin0, hstart1, hwin1] at h0 h1 hb
      simp only [Nat.cast_zero, add_zero, zero_add, Int.toNat_natCast] at h0 h1 hb
      refine ⟨?_, Fin.ext h1⟩
      have : ((idx (ix2 e 0)).toInt.toNat : Int) = (n.val : Int) := by exact_mod_cast h0
      omega
    · rintro ⟨hv, rfl⟩
      funext a
      refine Fin.ext ?_
      rcases fin2_cases a with rfl | rfl
      · show ((sDims2 N K E wf).start (ix2 e j') idx 0 + ((sDims2 N K E wf).window (ix2 e j') 0 : Nat)).toNat = n.val
        rw [hstart0, hwin0, hv]; simp
      · show ((sDims2 N K E wf).start (ix2 e j') idx 1 + ((sDims2 N K E wf).window (ix2 e j') 1 : Nat)).toNat = j'.val
        rw [hstart1, hwin1]; simp
  · rename_i h
    constructor
    · intro hf; exact absurd hf (by simp)
    · rintro ⟨hv, rfl⟩
      exfalso; apply h
      intro a
      rcases fin2_cases a with rfl | rfl
      · rw [hstart0, hwin0, hv]
        have := n.isLt
        constructor
        · simp
        · show ((n.val : Int) + ((0 : Nat) : Int)) < ((N : Nat) : Int)
          omega
      · rw [hstart1, hwin1]
        have := j'.isLt
        constructor
        · simp
        · show ((0 : Int) + ((j'.val : Nat) : Int)) < ((K : Nat) : Int)
          omega

/-- The row accumulating scatter at (n, j): the operand there plus the updates (e, j) whose word is n. -/
theorem scatterAdd2_apply {N K E w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w)
    (upd : (⟨2, ![E, K]⟩ : Shape).Idx → EReal) (n : Fin N) (j : Fin K) (p : Fin E → Prop) [DecidablePred p]
    (hp : ∀ e, p e ↔ (idx (ix2 e 0)).toInt = (n.val : Int)) :
    Ideal.hostScatterAdd (sDims2 N K E wf) x idx upd (ix2 n j)
      = x (ix2 n j) + ∑ e ∈ Finset.univ.filter p, upd (ix2 e j) := by
  unfold Ideal.hostScatterAdd
  congr 1
  have key : ∀ u : (⟨2, ![E, K]⟩ : Shape).Idx, (sDims2 N K E wf).resultIdx? u idx = some (ix2 n j) →
      p (u 0) ∧ u = ix2 (u 0) j := by
    intro u hu
    rw [eq_ix2 u] at hu
    have := (resultIdx2_iff wf idx _ _ n j).mp hu
    refine ⟨(hp _).mpr this.1, ?_⟩
    have h2 := eq_ix2 u
    rw [this.2] at h2
    exact h2
  refine Finset.sum_nbij' (fun u => u 0) (fun e => ix2 e j) ?_ ?_ ?_ ?_ ?_
  · intro u hu
    exact Finset.mem_filter.mpr ⟨Finset.mem_univ _, (key u (Finset.mem_filter.mp hu).2).1⟩
  · intro e he
    exact Finset.mem_filter.mpr ⟨Finset.mem_univ _,
      (resultIdx2_iff wf idx e j n j).mpr ⟨(hp e).mp (Finset.mem_filter.mp he).2, rfl⟩⟩
  · intro u hu; exact (key u (Finset.mem_filter.mp hu).2).2.symm
  · intro e _; rfl
  · intro u hu; exact congrArg upd (key u (Finset.mem_filter.mp hu).2).2

end Scatter

end Cert.LibGS

end
-- ==== Proof.RefValue.lean ====
import proofs.«208067_g26070451486926_retrytranche2_1712_11_alg».proof.Proof.RefRun
import proofs.«208067_g26070451486926_retrytranche2_1712_11_alg».proof.Proof.LibGatherScatter
import Idealize.ShloMosaic.Lib.ValueIdx

/-!
# The reference at index 7

With the scalar index 7 the take's out-of-range handling does nothing: 7 is not negative, so it is not moved; it lies
within 0..99, so the mask is 1 along the whole row; and the gather's clamp of 7 into 0..99 is 7. The result is row 7 of
the table: entry (0, j) is the table's entry (7, j).
-/

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-- 7 is not negative: the index is left where it is. -/
theorem wrapped_seven : wrapped (fun _ => 7#32) = fun _ => 7#32 := by
  funext i
  rfl

/-- A fold by `and` that starts at 1 and meets only 1s stays at 1. -/
theorem foldl_andi_ones {ι : Type} (l : List ι) : l.foldl (fun r _ => IntOp.andi r (1#1 : BitVec 1)) (1#1 : BitVec 1) = 1#1 := by
  induction l with
  | nil => rfl
  | cons a l ih =>
    rw [List.foldl_cons, show IntOp.andi (1#1 : BitVec 1) (1#1 : BitVec 1) = 1#1 by decide]
    exact ih

/-- 0 ≤ 7 ≤ 99: the mask is 1. -/
theorem inRange_seven : inRange (fun _ => 7#32) = fun _ => 1#1 := by
  funext j
  unfold inRange
  have hx : (andi (cmpi .sge (fun _ : S1x1.Idx => (7#32 : BitVec 32)) (broadcastInDim S1x1 ![] bcast_S_S1x1 (constantI S_ 32 0#32)))
      (cmpi .sle (fun _ : S1x1.Idx => (7#32 : BitVec 32)) (broadcastInDim S1x1 ![1] bcast_S1_S1x1_1 (constantI S1 32 99#32))))
        = fun _ => (1#1 : BitVec 1) := by
    funext i
    show IntOp.andi (IntOp.cmpi .sge (7#32 : BitVec 32) 0#32) (IntOp.cmpi .sle (7#32 : BitVec 32) 99#32) = 1#1
    decide
  rw [hx, Host.reduce_eq_foldl]
  exact foldl_andi_ones _

/-- At index 7 the reference's result is row 7 of the table. -/
theorem out_seven (x : FVec F S100x128 .f32) : out x (fun _ => 7#32) = fun i => x (ix2 (7 : Fin 100) (i 1)) := by
  funext i
  obtain ⟨p, q, rfl⟩ : ∃ (p : Fin 1) (q : Fin 128), i = ix2 p q := ⟨i 0, i 1, eq_ix2 i⟩
  unfold out
  rw [wrapped_seven, inRange_seven, select_apply]
  show Scalar.select 1#1 _ _ = _
  rw [select_one]
  show Host.gather (Cert.LibGS.gDims2 100 128 1 gather_S100x128_S1x1_S1x128_1_0_n_n_0_1_1128_wf) x (fun _ => 7#32) (ix2 p q) = _
  rw [Cert.LibGS.gather2_apply (by decide)]
  rfl

end Cert.ReferenceIdeal.RefValue

end
-- ==== Proof.lean ====
/- The kernel and the reference both take one row of a 100 x 128 table at a scalar index that the precondition pins to 7.

   The kernel runs on one SparseCore's sequencer: @main lays the scalar index into a one-element array; the sequencer
   copies that array into its scalar memory and waits, reads the word, and copies the table's row at that word onto the
   result row and waits. Each transfer has a semaphore of its own and is waited for before the next access to its ends,
   so the run needs no schedule. The word read is 7 (the precondition), so the row lies inside the table, the assumed
   side condition of the slice holds, and the result row ends at row 7 of the table: entry (0, j) = table (7, j).

   The reference moves a negative index up by 100, gathers at the index clamped into 0..99 and masks the row by
   "0 ≤ index ≤ 99"; at 7 none of that changes anything, and the result is again row 7 of the table.

   The three frames are the runs with the values dropped; the idealization rewrote nothing, so `preserves` is trivial;
   `algebraic` pairs the two runs at the one function "row 7 of the table". Data movement only: no law of arithmetic
   on the extended reals is used, and finiteness of the table plays no part. -/
import proofs.«208067_g26070451486926_retrytranche2_1712_11_alg».proof.Defs
import proofs.«208067_g26070451486926_retrytranche2_1712_11_alg».proof.Proof.Gen.Kernel
import proofs.«208067_g26070451486926_retrytranche2_1712_11_alg».proof.Proof.Gen.Kernel.Skeleton
import proofs.«208067_g26070451486926_retrytranche2_1712_11_alg».proof.Proof.Gen.KernelIdeal
import proofs.«208067_g26070451486926_retrytranche2_1712_11_alg».proof.Proof.Gen.KernelIdeal.Skeleton
import proofs.«208067_g26070451486926_retrytranche2_1712_11_alg».proof.Proof.Gen.ReferenceIdeal
import proofs.«208067_g26070451486926_retrytranche2_1712_11_alg».proof.Proof.Gen.Pre_input_domain
import proofs.«208067_g26070451486926_retrytranche2_1712_11_alg».proof.Proof.PreFacts
import proofs.«208067_g26070451486926_retrytranche2_1712_11_alg».proof.Proof.KernelRun
import proofs.«208067_g26070451486926_retrytranche2_1712_11_alg».proof.Proof.KernelIdealRun
import proofs.«208067_g26070451486926_retrytranche2_1712_11_alg».proof.Proof.RefRun
import proofs.«208067_g26070451486926_retrytranche2_1712_11_alg».proof.Proof.RefValue
import Idealize.ShloMosaic.Adequacy
import Idealize.ShloMosaic.Init

noncomputable section

namespace Cert.Proof

open Idealize.ShloMosaic Idealize.SL.Sem

/-- The word-level kernel's frame: its run from a memory whose scalar index is 7, the result dropped. -/
theorem frame_k : Cert.frame_Kernel := fun m ρ hpre =>
  (θ_run Cert.Kernel.defs _ _).mono (fun _ h c => ⟨(h c).2.1, (h c).2.2⟩)
    (Cert.Kernel.Run.run_main (F := Bits) m ρ fun d => Cert.Pre_input_domain.Decode.index_eq _ _ (hpre d))

/-- The idealized kernel's frame: the same run at the extended reals, the result dropped. -/
theorem frame_ki : Cert.frame_KernelIdeal := fun m ρ hpre =>
  (θ_run Cert.KernelIdeal.defs _ _).mono (fun _ h c => ⟨(h c).2.1, (h c).2.2⟩)
    (Cert.KernelIdeal.Run.run_main (F := Ideal) m ρ fun d => Cert.Pre_input_domain.Decode.index_eq _ _ (hpre d))

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with row 7 of the table on the result row: the kernel by its run, the reference by its run read
    at index 7, from memories that agree on the table and the index. -/
theorem algebraic : Cert.algebraic_KernelIdeal_ReferenceIdeal := by
  intro m ρ m' ρ' hpre hagree
  have h7 : ∀ d, m (Cert.KernelIdeal.Run.aLoc d) = fun _ => 7#32 :=
    fun d => Cert.Pre_input_domain.Decode.index_eq _ _ (hpre d)
  refine ⟨fun c => Cert.KernelIdeal.Run.ROW m c, ?_, ?_⟩
  · exact (θ_run Cert.KernelIdeal.defs _ _).mono (fun _ h c => ⟨(h c).1, (h c).2.1, (h c).2.2⟩)
      (Cert.KernelIdeal.Run.run_main (F := Ideal) m ρ h7)
  · refine (θ_run Cert.ReferenceIdeal.defs _ _).mono (fun _ h c => ⟨(h c).1.trans ?_, (h c).2⟩)
      (Cert.ReferenceIdeal.RefRun.run (F := Ideal) m' ρ')
    rw [(hagree c).1, (hagree c).2, h7 c]
    exact Cert.ReferenceIdeal.RefValue.out_seven (F := Ideal) _

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
